-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .f32) (main_arg1 : FVec F S2048x2048 .f32) (main_arg2 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S16384x2048 : Shape := ⟨2, ![16384, 2048]⟩
abbrev S2048x2048 : Shape := ⟨2, ![2048, 2048]⟩
abbrev S1024x128 : Shape := ⟨2, ![1024, 128]⟩
abbrev S2048x128 : Shape := ⟨2, ![2048, 128]⟩
abbrev S1024x2048 : Shape := ⟨2, ![1024, 2048]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S16384x2048, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x2048.size a
  hwx0_0 : ∀ i : grid0.Coords, EltTy.bits .f32 = 32 ∨ (Rect.block (s := S16384x2048) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x2048.size a
  hwx0_1 : ∀ i : grid0.Coords, EltTy.bits .f32 = 32 ∨ (Rect.block (s := S2048x2048) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x2048.size a
  hwx0_2 : ∀ i : grid0.Coords, EltTy.bits .f32 = 32 ∨ (Rect.block (s := S2048x2048) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x2048.size a
  hwx0_3 : ∀ i : grid0.Coords, EltTy.bits .f32 = 32 ∨ (Rect.block (s := S16384x2048) S1024x2048.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S2048x2048_S2048x2048_1_0 : S2048x2048.Transposes [1, 0] S2048x2048
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Body.lean ====
/-
  What one grid step leaves behind, as a value, whatever the float instance.

  The body keeps a running total in a scratch block of shape [1024, 2048]. At the first step of a row tile it stores
  the zero block there; at every step it loads the total, adds the product of the step's blocks and stores the sum
  back; at the last step of the row tile it copies the total into the output block. Each step's store covers the
  whole scratch block, so what the step leaves is the stored value itself:

    first step        : the step's update applied to the zero block (the total it loads is the zero block it just stored);
    a later step      : the step's update applied to the total the step before left;
    the last step     : the same, and the output block holds that same value (it is loaded back from the scratch).

  "The step's update" is the body's one arithmetic term (`k0_pay2` of the three input blocks and the loaded total).
-/
import proofs.«114711_j23691039605303_1_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem

variable {F : FTy → Type} [FloatOps F]

/-- The block's offsets are all zero: a whole-block access. -/
theorem hz : (![0, 0] : Fin 2 → Nat) = fun _ => 0 := funext fun a => by fin_cases a <;> rfl

/-- A step that is neither first nor last leaves, in the scratch block, its update of the total `xs0` it found there. -/
theorem acc_B (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i)
    (x0 : Vec F S1024x128 .f32) (x1 : Vec F S2048x128 .f32) (x2 : Vec F S2048x128 .f32) (xs0 : Vec F S1024x2048 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg4.read_unread, harg6.read_unread, View.ld_unit_zero (S := S1024x128) hz, View.ld_unit_zero (S := S2048x128) hz, View.ld_unit_zero (S := S1024x2048) hz]

/-- The first step of a row tile leaves its update of the zero block: the total it loads is the zero block it has
    just stored over whatever the scratch held. -/
theorem acc_A (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i)
    (x0 : Vec F S1024x128 .f32) (x1 : Vec F S2048x128 .f32) (x2 : Vec F S2048x128 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg2.read_unread, harg3.read_unread, harg4.read_unread, harg6.read_unread, View.ld_unit_zero (S := S1024x128) hz, View.ld_unit_zero (S := S2048x128) hz, View.ld_unit_zero (S := S1024x2048) hz]

/-- The last step of a row tile leaves, in the scratch block, its update of the total `xs0` it found there, -/
theorem acc_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x128 .f32) (x1 : Vec F S2048x128 .f32) (x2 : Vec F S2048x128 .f32) (xs0 : Vec F S1024x2048 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S1024x128) hz, View.ld_unit_zero (S := S2048x128) hz, View.ld_unit_zero (S := S1024x2048) hz]

/-- and the output block holds the same value: the body loads the new total back from the scratch and stores it. -/
theorem out_C (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x128 .f32) (x1 : Vec F S2048x128 .f32) (x2 : Vec F S2048x128 .f32) (xs0 : Vec F S1024x2048 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1024x2048) _ hz]
  simp only [View.readAt_eq_ld, harg2.read_unread, harg3.read_unread, harg4.read_unread, harg6.read_unread, View.ld_unit_zero (S := S1024x128) hz, View.ld_unit_zero (S := S2048x128) hz, View.ld_unit_zero (S := S1024x2048) hz]

end Cert.KernelIdeal.Body

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.Step.lean ====
/-
  One grid step's arithmetic on the extended reals, entry by entry.

  The step's update takes the step's block `x0 : [1024, 128]` of the input, the blocks `x1, x2 : [2048, 128]` of the
  weight and of the mask, and the running total `acc : [1024, 2048]`. It multiplies weight and mask entry by entry,
  contracts the last axis of `x0` with the last axis of that product into a zero accumulator, and adds the result to
  `acc`. The two roundings to the short float format on the way into the contraction are the identity on the extended
  reals. So at row `r`, column `o` the update is
      acc[r, o] + Σ_j x0[r, j] · (x1[o, j] · x2[o, j])          (j over the block's 128 columns).
  The zero block the first step stores is `0` at every entry.
-/
import proofs.«114711_j23691039605303_1_alg».proof.Proof.Gen.KernelIdeal.Skeleton
import proofs.«114711_j23691039605303_1_alg».proof.Proof.LibMatmulNT
import Idealize.ShloMosaic.Lib.Pipeline.Value
import Idealize.ShloMosaic.Lib.ValueIdx
import Idealize.ShloMosaic.PureOps.Ideal.Laws

noncomputable section

namespace Cert.KernelIdeal.Step

open Cert.KernelIdeal Cert.KernelIdeal.Gen Idealize.ShloMosaic Idealize.ShloMosaic.ValueIdx
open scoped BigOperators

/-- The step's update at row `r`, column `o`: the total there plus the block's 128 products. -/
theorem update_apply (x0 : FVec Ideal S1024x128 .f32) (x1 x2 : FVec Ideal S2048x128 .f32) (acc : FVec Ideal S1024x2048 .f32)
    (r : Fin 1024) (o : Fin 2048) :
    k0_pay2 (F := Ideal) x0 x1 x2 acc (ix2 r o)
      = acc (ix2 r o) + ∑ j : Fin 128, x0 (ix2 r j) * (x1 (ix2 o j) * x2 (ix2 o j)) := by
  show shapeCast S1024x2048 (addf acc (matmul dot_S1024x128_S2048x128_S1024x2048_1_1_0_0_n_n none
      (truncf .bf16 x0 bitsLt_bf16_f32) (truncf .bf16 (mulf x1 x2) bitsLt_bf16_f32)
      (constant S1024x2048 .f32 0x00000000#32))) shapeCasts_S1024x2048_S1024x2048 (ix2 r o) = _
  rw [shapeCast_self]
  refine (addf_apply _ _ _).trans ?_
  refine congrArg (fun z => acc (ix2 r o) + z) ?_
  exact Cert.LibMatmulNT.matmul_nt_apply dot_S1024x128_S2048x128_S1024x2048_1_1_0_0_n_n rfl rfl rfl rfl rfl rfl none
    (truncf .bf16 x0 bitsLt_bf16_f32) (truncf .bf16 (mulf x1 x2) bitsLt_bf16_f32) r o

/-- The zero block is `0` at every entry. -/
theorem zero_apply (i : S1024x2048.Idx) : k0_pay1 (F := Ideal) i = 0 := by
  show shapeCast S1024x2048 (broadcast S1024x2048 (Scalar.ofBits (F := Ideal) .f32 0x00000000#32))
    shapeCasts_S1024x2048_S1024x2048 i = 0
  rw [shapeCast_self]
  exact Ideal.ofBits_zero_f32

end Cert.KernelIdeal.Step

end
-- ==== Proof.Blocks.lean ====
/-
  Where the blocks sit in the arrays.

  The grid is 16 row tiles by 16 column tiles, walked row tile by row tile: point `t` is row tile `t / 16`, column
  tile `t % 16`. At point `t`
    the input's block is rows `1024·(t/16) …`, columns `128·(t%16) …` of the input `[16384, 2048]`;
    the weight's and the mask's blocks are all 2048 rows, columns `128·(t%16) …` of their arrays `[2048, 2048]`;
    the output's block is rows `1024·(t/16) …`, all 2048 columns of the result `[16384, 2048]`.
  Entry `(y₀, y₁)` of a block is entry (block index × block extent + y) of the array, axis by axis. The output blocks of
  the points that write back (the last column tile of each row tile) together cover every row of the result.
-/
import proofs.«114711_j23691039605303_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The four windows' block indices at a point, decided once over the 256 points of the grid. -/
theorem block_index : ∀ t : Fin cfg0.N,
    win0_0.index t (0 : Fin 2) = t.val / 16 ∧ win0_0.index t (1 : Fin 2) = t.val % 16
    ∧ win0_1.index t (0 : Fin 2) = 0 ∧ win0_1.index t (1 : Fin 2) = t.val % 16
    ∧ win0_2.index t (0 : Fin 2) = 0 ∧ win0_2.index t (1 : Fin 2) = t.val % 16
    ∧ win0_3.index t (0 : Fin 2) = t.val / 16 ∧ win0_3.index t (1 : Fin 2) = 0 :=
  (by decide +kernel : ∀ t : Fin grid0.N, _)

/-- The input's block at point `t`, entry `(r, j)`: row `1024·(t/16) + r`, column `128·(t%16) + j` of the input. -/
theorem input_block (c : Dev nD) (t : Fin cfg0.N) (r : Fin 1024) (j : Fin 128) (R : Fin 16384) (k : Fin 2048)
    (hR : R.val = 1024 * (t.val / 16) + r.val) (hk : k.val = 128 * (t.val % 16) + j.val) :
    (iblk m c 0 t : Vec F S1024x128 .f32) (ix2 r j) = m ((c : Thread nD τ).loc main_arg0) (ix2 R k) := by
  obtain ⟨e0, e1, -⟩ := block_index t
  unfold iblk
  rw [View.read_apply]
  show m ((c : Thread nD τ).loc main_arg0) (((cfg0.win 0).blk t).view.emb (ix2 r j)) = _
  refine congrArg (m ((c : Thread nD τ).loc main_arg0)) ?_
  funext a; apply Fin.ext
  match a with
  | ⟨0, _⟩ => show win0_0.index t (0 : Fin 2) * 1024 + 1 * r.val = R.val; omega
  | ⟨1, _⟩ => show win0_0.index t (1 : Fin 2) * 128 + 1 * j.val = k.val; omega

/-- The weight's block at point `t`, entry `(o, j)`: row `o`, column `128·(t%16) + j` of the weight. -/
theorem weight_block (c : Dev nD) (t : Fin cfg0.N) (o : Fin 2048) (j : Fin 128) (k : Fin 2048)
    (hk : k.val = 128 * (t.val % 16) + j.val) :
    (iblk m c 1 t : Vec F S2048x128 .f32) (ix2 o j) = m ((c : Thread nD τ).loc main_arg1) (ix2 o k) := by
  obtain ⟨-, -, e0, e1, -⟩ := block_index t
  unfold iblk
  rw [View.read_apply]
  show m ((c : Thread nD τ).loc main_arg1) (((cfg0.win 1).blk t).view.emb (ix2 o j)) = _
  refine congrArg (m ((c : Thread nD τ).loc main_arg1)) ?_
  funext a; apply Fin.ext
  match a with
  | ⟨0, _⟩ => show win0_1.index t (0 : Fin 2) * 2048 + 1 * o.val = o.val; omega
  | ⟨1, _⟩ => show win0_1.index t (1 : Fin 2) * 128 + 1 * j.val = k.val; omega

/-- The mask's block at point `t`, entry `(o, j)`: row `o`, column `128·(t%16) + j` of the mask. -/
theorem mask_block (c : Dev nD) (t : Fin cfg0.N) (o : Fin 2048) (j : Fin 128) (k : Fin 2048)
    (hk : k.val = 128 * (t.val % 16) + j.val) :
    (iblk m c 2 t : Vec F S2048x128 .f32) (ix2 o j) = m ((c : Thread nD τ).loc main_arg2) (ix2 o k) := by
  obtain ⟨-, -, -, -, e0, e1, -⟩ := block_index t
  unfold iblk
  rw [View.read_apply]
  show m ((c : Thread nD τ).loc main_arg2) (((cfg0.win 2).blk t).view.emb (ix2 o j)) = _
  refine congrArg (m ((c : Thread nD τ).loc main_arg2)) ?_
  funext a; apply Fin.ext
  match a with
  | ⟨0, _⟩ => show win0_2.index t (0 : Fin 2) * 2048 + 1 * o.val = o.val; omega
  | ⟨1, _⟩ => show win0_2.index t (1 : Fin 2) * 128 + 1 * j.val = k.val; omega

/-- The output's block at point `t`, entry `(r, o)`, is entry `(1024·(t/16) + r, o)` of the result. -/
theorem output_block (t : Fin cfg0.N) (r : Fin 1024) (o : Fin 2048) (R : Fin 16384)
    (hR : R.val = 1024 * (t.val / 16) + r.val) :
    ((cfg0.win 3).blk t).view.emb (ix2 r o) = ix2 R o := by
  obtain ⟨-, -, -, -, -, -, e0, e1⟩ := block_index t
  funext a; apply Fin.ext
  match a with
  | ⟨0, _⟩ => show win0_3.index t (0 : Fin 2) * 1024 + 1 * r.val = R.val; omega
  | ⟨1, _⟩ => show win0_3.index t (1 : Fin 2) * 2048 + 1 * o.val = o.val; omega

/-- An index of the result lies in point `t`'s output block iff each coordinate is in the block's range on its axis. -/
theorem mem_output_block (t : Fin cfg0.N) (i : S16384x2048.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v0).slice (win0_3.rect t)).set ↔ _
  rw [View.set_slice_whole, Rect.mem_set_unit]
  exact Iff.rfl

/-- Every entry of the result is in the output block of a point that writes back: row `R` is in row tile `R / 1024`,
    whose last point is `16·(R / 1024) + 15`. -/
theorem covered (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 256 := N_0
  let t : Fin cfg0.N := ⟨16 * ((i 0).val / 1024) + 15, by rw [hN]; omega⟩
  have ht : t.val = 16 * ((i 0).val / 1024) + 15 := rfl
  obtain ⟨-, -, -, -, -, -, e0, e1⟩ := block_index t
  refine ⟨t, (flush0_3 t).mpr (by rw [ht]; omega), ?_⟩
  rw [mem_output_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

end Cert.KernelIdeal.Blocks

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.Tiled.lean ====
/-
  The masked linear layer as one function of its three arrays, and its reading as a sum of column tiles.

  For `A : [16384, 2048]`, `W, Mk : [2048, 2048]` the layer's entry at row `r`, output feature `o` is
      Σ_k A[r, k] · (W[o, k] · Mk[o, k])          (k over the 2048 input features),
  the product of `A` with the transpose of the masked weight `W ⊙ Mk`. The 2048 input features are 16 tiles of 128:
  feature `128·s + j` is position `j` of tile `s`. Summing each tile's 128 products and then the 16 tile totals is the
  same sum, addition on the extended reals being commutative and associative; nothing about finiteness is used.
-/
import Idealize.ShloMosaic.Lib.ValueIdx
import Idealize.ShloMosaic.PureOps.Ideal
import proofs.«114711_j23691039605303_1_alg».proof.Proof.LibTiles

noncomputable section

namespace Cert.MaskedLinear

open Idealize.ShloMosaic Idealize.ShloMosaic.ValueIdx
open scoped BigOperators

/-- One product of the contraction: input feature `k` of row `r` against the masked weight of output feature `o`. -/
def term (A : FVec Ideal ⟨2, ![16384, 2048]⟩ .f32) (W Mk : FVec Ideal ⟨2, ![2048, 2048]⟩ .f32)
    (r : Fin 16384) (o : Fin 2048) (k : Fin 2048) : Ideal .f32 :=
  A (ix2 r k) * (W (ix2 o k) * Mk (ix2 o k))

/-- The layer's entry at row `r`, output feature `o`: the contraction over all 2048 input features. -/
def entry (A : FVec Ideal ⟨2, ![16384, 2048]⟩ .f32) (W Mk : FVec Ideal ⟨2, ![2048, 2048]⟩ .f32)
    (r : Fin 16384) (o : Fin 2048) : Ideal .f32 :=
  ∑ k : Fin 2048, term A W Mk r o k

/-- The layer as an array: entry `(i₀, i₁)` at index `i`. -/
def layer (A : FVec Ideal ⟨2, ![16384, 2048]⟩ .f32) (W Mk : FVec Ideal ⟨2, ![2048, 2048]⟩ .f32) :
    FVec Ideal ⟨2, ![16384, 2048]⟩ .f32 :=
  fun i => entry A W Mk (i 0) (i 1)

/-- Tile `s`'s share of the entry: the 128 products of the input features `128·s, …, 128·s + 127`. A tile number
    past the sixteenth contributes nothing (the function is total so that it can be summed over a range of naturals). -/
def tileSum (A : FVec Ideal ⟨2, ![16384, 2048]⟩ .f32) (W Mk : FVec Ideal ⟨2, ![2048, 2048]⟩ .f32)
    (r : Fin 16384) (o : Fin 2048) (s : ℕ) : Ideal .f32 :=
  if hs : s < 16 then ∑ j : Fin 128, term A W Mk r o ⟨128 * s + j.val, by omega⟩ else 0

/-- The sixteen tile shares add up to the entry. -/
theorem sum_tileSum (A : FVec Ideal ⟨2, ![16384, 2048]⟩ .f32) (W Mk : FVec Ideal ⟨2, ![2048, 2048]⟩ .f32)
    (r : Fin 16384) (o : Fin 2048) :
    ∑ s ∈ Finset.range 16, tileSum A W Mk r o s = entry A W Mk r o := by
  rw [Finset.sum_range]
  have h := Cert.LibTiles.sum_tiles_mul (M := Ideal .f32) 16 128 (fun k : Fin (16 * 128) => term A W Mk r o ⟨k.val, k.isLt⟩)
    (fun j p => by omega)
  refine Eq.trans (Finset.sum_congr rfl fun s _ => ?_) h
  unfold tileSum
  rw [dif_pos s.isLt]

end Cert.MaskedLinear

end
-- ==== Proof.Acc.lean ====
/-
  The running total over a row tile's sixteen steps, and what the kernel leaves in the result.

  Within a row tile the steps are the points `16·q, …, 16·q + 15`. Each step adds to every entry `(r, o)` of the total the
  128 products of its column tile (its addend); the first step starts from zero. So after the last step the total at
  `(r, o)` is the sum of the sixteen addends, and the addend of column tile `s` is tile `s`'s share of the layer's entry
  at row `1024·q + r`, output feature `o`. The last step copies the total into the output block, which is written back
  to rows `1024·q …` of the result; the sixteen row tiles cover the result. Hence the result array is the layer.
-/
import proofs.«114711_j23691039605303_1_alg».proof.Proof.Gen.KernelIdeal.Value
import proofs.«114711_j23691039605303_1_alg».proof.Proof.Body
import proofs.«114711_j23691039605303_1_alg».proof.Proof.Step
import proofs.«114711_j23691039605303_1_alg».proof.Proof.Blocks
import proofs.«114711_j23691039605303_1_alg».proof.Proof.Tiled

noncomputable section

namespace Cert.KernelIdeal.Acc

open Cert.KernelIdeal Cert.KernelIdeal.Gen Idealize.ShloMosaic Idealize.ShloMosaic.TcCoe Idealize.SL.Sem
open Idealize.ShloMosaic.ValueIdx
open Idealize.ShloMosaic.Pipeline (Dat)
open Cert.MaskedLinear
open scoped BigOperators

variable (m : (ℓ : Loc nD τ sig) → Buf (Elt Ideal) ℓ) (ρ : Dev nD → PrngReg)

/-- The input's, the weight's and the mask's block at a point, as arrays of extended reals of the blocks' literal shapes. -/
abbrev inBlk (c : Dev nD) (t : Fin cfg0.N) : FVec Ideal S1024x128 .f32 := iblk m c 0 t
abbrev wBlk (c : Dev nD) (t : Fin cfg0.N) : FVec Ideal S2048x128 .f32 := iblk m c 1 t
abbrev mkBlk (c : Dev nD) (t : Fin cfg0.N) : FVec Ideal S2048x128 .f32 := iblk m c 2 t

/-- What point `n` adds to entry `(r, o)` of the total: the 128 products of its blocks (nothing past the grid). -/
def addend (c : Dev nD) (n : ℕ) (r : Fin 1024) (o : Fin 2048) : Ideal .f32 :=
  if hb : n < cfg0.N then
    ∑ j : Fin 128, inBlk m c (⟨n, hb⟩ : Fin cfg0.N) (ix2 r j) * (wBlk m c (⟨n, hb⟩ : Fin cfg0.N) (ix2 o j) * mkBlk m c (⟨n, hb⟩ : Fin cfg0.N) (ix2 o j))
  else 0

/-- One step of the total, entry by entry: the first step of a row tile starts from zero, every other step from the
    total it found; both add the point's addend. -/
theorem step_apply (c : Dev nD) (n : ℕ) (hb : n < cfg0.N) (acc : Vec Ideal S1024x2048 .f32) (r : Fin 1024) (o : Fin 2048) :
    Value.scAt0_0 m c n hb acc (ix2 r o) = (if n % 16 = 0 then 0 else acc (ix2 r o)) + addend m c n r o := by
  have hN : n < 256 := lt_of_lt_of_eq hb N_0
  unfold Value.scAt0_0 addend
  rw [dif_pos hb]
  by_cases h0 : n % 16 = 0
  · have h1 : ¬n % 16 = 15 := by omega
    rw [dif_pos h0, dif_neg h1, if_pos h0]
    refine (congrFun (Body.acc_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 r o)).trans ?_
    refine (Step.update_apply (iblk m c 0 (⟨n, hb⟩ : Fin cfg0.N)) (iblk m c 1 (⟨n, hb⟩ : Fin cfg0.N)) (iblk m c 2 (⟨n, hb⟩ : Fin cfg0.N)) (k0_pay1 (F := Ideal)) r o).trans ?_
    rw [Step.zero_apply]
  · by_cases h1 : n % 16 = 15
    · rw [dif_neg h0, dif_pos h1, if_neg h0]
      refine (congrFun (Body.acc_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 r o)).trans ?_
      exact Step.update_apply (iblk m c 0 (⟨n, hb⟩ : Fin cfg0.N)) (iblk m c 1 (⟨n, hb⟩ : Fin cfg0.N)) (iblk m c 2 (⟨n, hb⟩ : Fin cfg0.N)) acc r o
    · rw [dif_neg h0, dif_neg h1, if_neg h0]
      refine (congrFun (Body.acc_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 r o)).trans ?_
      exact Step.update_apply (iblk m c 0 (⟨n, hb⟩ : Fin cfg0.N)) (iblk m c 1 (⟨n, hb⟩ : Fin cfg0.N)) (iblk m c 2 (⟨n, hb⟩ : Fin cfg0.N)) acc r o

/-- After the last step of a row tile the total at `(r, o)` is the sum of the row tile's sixteen addends. -/
theorem total_apply (c : Dev nD) (t : Fin cfg0.N) (h15 : t.val % 16 = 15) (r : Fin 1024) (o : Fin 2048) :
    (outsAt0 m c t.val t.isLt).2 (ix2 r o) = ∑ s ∈ Finset.range 16, addend m c (16 * (t.val / 16) + s) r o := by
  rw [Value.soutsAt0_0_eq m c t]
  have key : ∀ (j : ℕ) (hj : j = 15) (h : 16 * (t.val / 16) + j < cfg0.N),
      Pipeline.accAt (fun n h => Value.scAt0_0 m c n h (VS0_0.read (Elt Ideal) VS0_0.junk)) (Value.scAt0_0 m c) (16 * (t.val / 16)) j h (ix2 r o)
        = ∑ s ∈ Finset.range 16, addend m c (16 * (t.val / 16) + s) r o := by
    intro j hj h
    subst hj
    refine (Pipeline.accAt_add_apply (fun n h => Value.scAt0_0 m c n h (VS0_0.read (Elt Ideal) VS0_0.junk)) (Value.scAt0_0 m c)
      (fun _ => (0 : Ideal .f32)) (fun n i => addend m c n (i 0) (i 1)) (16 * (t.val / 16)) 15 ?_ ?_ 15 le_rfl h (ix2 r o)).trans (zero_add _)
    · intro hb i
      obtain ⟨r', o', rfl⟩ : ∃ (r' : Fin 1024) (o' : Fin 2048), i = ix2 r' o' := ⟨i 0, i 1, eq_ix2 i⟩
      refine (step_apply m c _ hb _ r' o').trans ?_
      rw [if_pos (Nat.mul_mod_right 16 _)]
    · intro n hn acc i hlo hhi
      obtain ⟨r', o', rfl⟩ : ∃ (r' : Fin 1024) (o' : Fin 2048), i = ix2 r' o' := ⟨i 0, i 1, eq_ix2 i⟩
      refine (step_apply m c n hn acc r' o').trans ?_
      rw [if_neg (by omega)]
  exact key _ h15 _

/-- At the last step of a row tile the output block holds the same value as the total. -/
theorem out_eq_total (c : Dev nD) (t : Fin cfg0.N) (h15 : t.val % 16 = 15) :
    (outsAt0 m c t.val t.isLt).1 = (outsAt0 m c t.val t.isLt).2 := by
  have h0 : ¬t.val % 16 = 0 := by omega
  rw [outsAt0_C m c t h0 h15]
  dsimp only
  exact (Body.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h15) (iblk m c 0 t) (iblk m c 1 t) (iblk m c 2 t) (outsAt0 m c (t.val - 1) (Nat.lt_of_le_of_lt (Nat.sub_le _ _) t.isLt)).2).trans
    (Body.acc_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h15) (iblk m c 0 t) (iblk m c 1 t) (iblk m c 2 t) (outsAt0 m c (t.val - 1) (Nat.lt_of_le_of_lt (Nat.sub_le _ _) t.isLt)).2).symm

/-- The addend of column tile `s` in row tile `q` is tile `s`'s share of the layer's entry at row `1024·q + r`. -/
theorem addend_eq_tileSum (c : Dev nD) (q s : ℕ) (hq : q < 16) (hs : s < 16) (r : Fin 1024) (o : Fin 2048) (R : Fin 16384)
    (hR : R.val = 1024 * q + r.val) :
    addend m c (16 * q + s) r o
      = tileSum (m ((c : Thread nD τ).loc main_arg0)) (m ((c : Thread nD τ).loc main_arg1)) (m ((c : Thread nD τ).loc main_arg2)) R o s := by
  have hN : cfg0.N = 256 := N_0
  have hb : 16 * q + s < cfg0.N := by rw [hN]; omega
  unfold addend tileSum
  rw [dif_pos hb, dif_pos hs]
  refine Finset.sum_congr rfl fun j _ => ?_
  have hj : j.val < 128 := j.isLt
  have hk : (⟨128 * s + j.val, by omega⟩ : Fin 2048).val = 128 * ((⟨16 * q + s, hb⟩ : Fin cfg0.N).val % 16) + j.val := by
    show 128 * s + j.val = 128 * ((16 * q + s) % 16) + j.val; omega
  have hR' : R.val = 1024 * ((⟨16 * q + s, hb⟩ : Fin cfg0.N).val / 16) + r.val := by
    show R.val = 1024 * ((16 * q + s) / 16) + r.val; omega
  unfold term
  exact congrArg₂ (fun x y : Ideal .f32 => x * y) (Blocks.input_block m c ⟨16 * q + s, hb⟩ r j R ⟨128 * s + j.val, by omega⟩ hR' hk)
    (congrArg₂ (fun x y : Ideal .f32 => x * y) (Blocks.weight_block m c ⟨16 * q + s, hb⟩ o j ⟨128 * s + j.val, by omega⟩ hk)
      (Blocks.mask_block m c ⟨16 * q + s, hb⟩ o j ⟨128 * s + j.val, by omega⟩ hk))

/-- What a point that writes back writes: its block of the layer of the three argument arrays. -/
theorem flushed_eq (c : Dev nD) (t : Fin cfg0.N) (hf : (cfg0.win 3).flush t = true) :
    (dats m 0 c).flushed 3 t = ((cfg0.win 3).blk t).view.read (Elt Ideal)
      (layer (m ((c : Thread nD τ).loc main_arg0)) (m ((c : Thread nD τ).loc main_arg1)) (m ((c : Thread nD τ).loc main_arg2))) := by
  have h15 : t.val % 16 = 15 := (flush0_3 t).mp hf
  have hN : t.val < 256 := lt_of_lt_of_eq t.isLt N_0
  rw [Value.flushed3, out_eq_total m c t h15]
  funext y
  obtain ⟨r, o, rfl⟩ : ∃ (r : Fin 1024) (o : Fin 2048), y = ix2 r o := ⟨y 0, y 1, eq_ix2 y⟩
  show (outsAt0 m c t.val t.isLt).2 (ix2 r o) = layer _ _ _ (((cfg0.win 3).blk t).view.emb (ix2 r o))
  rw [total_apply m c t h15 r o, Blocks.output_block t r o ⟨1024 * (t.val / 16) + r.val, by have := r.isLt; omega⟩ rfl]
  show _ = entry _ _ _ ⟨1024 * (t.val / 16) + r.val, _⟩ o
  rw [← sum_tileSum]
  refine Finset.sum_congr rfl fun s hs => ?_
  exact addend_eq_tileSum m c (t.val / 16) s (by omega) (Finset.mem_range.mp hs) r o _ rfl

/-- The result array after the run is the layer of the three argument arrays. -/
theorem final (c : Dev nD) :
    (dats m 0 c).arrAt 3 cfg0.N
      = layer (m ((c : Thread nD τ).loc main_arg0)) (m ((c : Thread nD τ).loc main_arg1)) (m ((c : Thread nD τ).loc main_arg2)) :=
  (dats m 0 c).arrAt_eq_of_cover 3 _ (fun t hf => flushed_eq m c t hf) Blocks.covered

/-- The kernel's run: the result at the layer of the arguments, the arguments unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Acc

end
-- ==== Proof.Reference.lean ====
/-
  The reference computes the layer.

  The reference multiplies weight and mask entry by entry, transposes the product, and contracts the input's last axis
  with the transposed product's first axis. Read at row `r`, output feature `o`: the sum over `k` of the input at `(r, k)`
  times the transposed product at `(k, o)`, which is the product at `(o, k)`, which is weight times mask there.
-/
import proofs.«114711_j23691039605303_1_alg».proof.Proof.Gen.ReferenceIdeal.Read
import proofs.«114711_j23691039605303_1_alg».proof.Proof.Tiled

noncomputable section

namespace Cert.ReferenceIdeal.RefValue

open Cert.ReferenceIdeal Cert.ReferenceIdeal.Read Idealize.ShloMosaic Idealize.ShloMosaic.ValueIdx
open Cert.MaskedLinear
open scoped BigOperators

/-- The reference's last stage, as a function of the three arguments, is the layer. -/
theorem result_eq (A : FVec Ideal S16384x2048 .f32) (W Mk : FVec Ideal S2048x2048 .f32) :
    val_main_v2 (F := Ideal) A W Mk = layer A W Mk := by
  funext i
  obtain ⟨r, o, rfl⟩ : ∃ (r : Fin 16384) (o : Fin 2048), i = ix2 r o := ⟨i 0, i 1, eq_ix2 i⟩
  rw [val_main_v2_apply]
  show _ = ∑ k : Fin 2048, term A W Mk r o k
  refine Finset.sum_congr rfl fun k _ => ?_
  rw [val_main_v1_apply, val_main_v0_apply]
  have el : lidx_main_v2 (ix2 r o) k = ix2 r k := funext fun a => Fin.ext (by
    match a with
    | ⟨0, _⟩ => rfl
    | ⟨1, _⟩ => rfl)
  have er : idx_main_v1 (ridx_main_v2 (ix2 r o) k) = ix2 o k := funext fun a => Fin.ext (by
    match a with
    | ⟨0, _⟩ => rfl
    | ⟨1, _⟩ => rfl)
  rw [el, er]
  rfl

end Cert.ReferenceIdeal.RefValue

end
-- ==== Proof.lean ====
/-
  A masked linear layer, `output = input · (weight ⊙ mask)ᵀ`, computed tile by tile against the plain matrix product.

  The kernel walks a 16 × 16 grid: 16 row tiles of 1024 rows, and for each row tile 16 column tiles of 128 input
  features. For one row tile it keeps a running total `[1024, 2048]`: zero at the first column tile, plus
  `x · (w ⊙ mk)ᵀ` of the current blocks at every column tile, copied into the result's rows after the last one. The
  reference multiplies weight and mask, transposes, and contracts all 2048 input features at once.

  On the extended reals both are, at row `R` and output feature `o`, the sum over the 2048 input features `k` of
  `input[R, k] · (weight[o, k] · mask[o, k])`: the kernel's sixteen partial sums of 128 products, added in order from
  zero, are the same sum because addition there is commutative and associative (no finiteness is needed), and the
  roundings to the short float format on the way into the kernel's contraction are the identity there.

  The three frames are the generated ones (the reference's is its generated run with the result dropped); the
  idealized kernel is the kernel's own text read on the extended reals, so the preservation claim has no conjunct;
  the value claim sets the kernel's run (`Acc.run`) beside the reference's run, both ending at the one function
  `layer` of the arguments.
-/
import proofs.«114711_j23691039605303_1_alg».proof.Defs
import proofs.«114711_j23691039605303_1_alg».proof.Proof.Gen.Kernel
import proofs.«114711_j23691039605303_1_alg».proof.Proof.Gen.Kernel.Skeleton
import proofs.«114711_j23691039605303_1_alg».proof.Proof.Gen.Kernel.Launch
import proofs.«114711_j23691039605303_1_alg».proof.Proof.Gen.Kernel.Points
import proofs.«114711_j23691039605303_1_alg».proof.Proof.Gen.Kernel.Frame
import proofs.«114711_j23691039605303_1_alg».proof.Proof.Gen.KernelIdeal
import proofs.«114711_j23691039605303_1_alg».proof.Proof.Gen.KernelIdeal.Skeleton
import proofs.«114711_j23691039605303_1_alg».proof.Proof.Gen.KernelIdeal.Launch
import proofs.«114711_j23691039605303_1_alg».proof.Proof.Gen.KernelIdeal.Points
import proofs.«114711_j23691039605303_1_alg».proof.Proof.Gen.KernelIdeal.Frame
import proofs.«114711_j23691039605303_1_alg».proof.Proof.Gen.ReferenceIdeal
import proofs.«114711_j23691039605303_1_alg».proof.Proof.Gen.Pre_finite_inputs
import proofs.«114711_j23691039605303_1_alg».proof.Proof.Gen.KernelIdeal.Value
import proofs.«114711_j23691039605303_1_alg».proof.Proof.Gen.ReferenceIdeal.Run
import proofs.«114711_j23691039605303_1_alg».proof.Proof.Gen.ReferenceIdeal.Read
import proofs.«114711_j23691039605303_1_alg».proof.Proof.Acc
import proofs.«114711_j23691039605303_1_alg».proof.Proof.Reference
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments both programs end at the layer of those arguments. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v2_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
